-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v44)) (v2 : (c : Dev Cert.KernelIdeal.nD) → Buf (Elt Ideal) ((c.tc : Thread Cert.KernelIdeal.nD Cert.KernelIdeal.τ).loc Cert.KernelIdeal.main_v44)) (v3 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_v44) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x625000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S50000 : Shape := ⟨1, ![50000]⟩
abbrev S625000x1 : Shape := ⟨2, ![625000, 1]⟩
abbrev S50000x1 : Shape := ⟨2, ![50000, 1]⟩
abbrev S625000x128 : Shape := ⟨2, ![625000, 128]⟩
abbrev S1x128 : Shape := ⟨2, ![1, 128]⟩
abbrev S5000x128 : Shape := ⟨2, ![5000, 128]⟩

abbrev nBuf : Space → Nat
  | .hbm => 63
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x625000, .i32⟩
  | .hbm, ⟨9, _⟩ => ⟨S625000, .i32⟩
  | .hbm, ⟨10, _⟩ => ⟨S1x625000, .i32⟩
  | .hbm, ⟨11, _⟩ => ⟨S625000, .i32⟩
  | .hbm, ⟨12, _⟩ => ⟨S_, .f32⟩
  | .hbm, ⟨13, _⟩ => ⟨S625000, .f32⟩
  | .hbm, ⟨14, _⟩ => ⟨S_, .f32⟩
  | .hbm, ⟨15, _⟩ => ⟨S50000, .f32⟩
  | .hbm, ⟨16, _⟩ => ⟨S625000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S625000, .i32⟩
  | .hbm, ⟨27, _⟩ => ⟨S625000, .i1⟩
  | .hbm, ⟨28, _⟩ => ⟨S_, .i32⟩
  | .hbm, ⟨29, _⟩ => ⟨S625000, .i32⟩
  | .hbm, ⟨30, _⟩ => ⟨S625000, .i32⟩
  | .hbm, ⟨31, _⟩ => ⟨S625000, .i32⟩
  | .hbm, ⟨32, _⟩ => ⟨S625000x1, .i32⟩
  | .hbm, ⟨33, _⟩ => ⟨S625000x128, .f32⟩
  | .hbm, ⟨34, _⟩ => ⟨S_, .f32⟩
  | .hbm, ⟨35, _⟩ => ⟨S50000x128, .f32⟩
  | .hbm, ⟨36, _⟩ => ⟨S625000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S625000, .i32⟩
  | .hbm, ⟨46, _⟩ => ⟨S625000, .i1⟩
  | .hbm, ⟨47, _⟩ => ⟨S_, .i32⟩
  | .hbm, ⟨48, _⟩ => ⟨S625000, .i32⟩
  | .hbm, ⟨49, _⟩ => ⟨S625000, .i32⟩
  | .hbm, ⟨50, _⟩ => ⟨S625000, .i32⟩
  | .hbm, ⟨51, _⟩ => ⟨S625000x1, .i32⟩
  | .hbm, ⟨52, _⟩ => ⟨S625000x128, .f32⟩
  | .hbm, ⟨53, _⟩ => ⟨S_, .f32⟩
  | .hbm, ⟨54, _⟩ => ⟨S50000x128, .f32⟩
  | .hbm, ⟨55, _⟩ => ⟨S625000x1, .i32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S128x128, .f32⟩
  | .hbm, ⟨60, _⟩ => ⟨S128x128, .f32⟩
  | .hbm, ⟨61, _⟩ => ⟨S1x128, .f32⟩
  | .hbm, ⟨62, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S50000 : S_.BroadcastsInDim S50000 (![] : Fin 0 → Fin S50000.rank)
  bcast_S625000_S625000x1_0 : S625000.BroadcastsInDim S625000x1 (![0] : Fin 1 → Fin S625000x1.rank)
  shapeCasts_S50000_S50000x1 : S50000.ShapeCasts S50000x1
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S625000x1_S625000_n_0_0_1_wf : ScatterDims.WF S50000 S625000x1 S625000 [] [0] [0] 1
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x625000, .i32⟩
  | .hbm, ⟨9, _⟩ => ⟨S625000, .i32⟩
  | .hbm, ⟨10, _⟩ => ⟨S1x625000, .i32⟩
  | .hbm, ⟨11, _⟩ => ⟨S625000, .i32⟩
  | .hbm, ⟨12, _⟩ => ⟨S_, .i32⟩
  | .hbm, ⟨13, _⟩ => ⟨S625000, .i32⟩
  | .hbm, ⟨14, _⟩ => ⟨S625000, .i1⟩
  | .hbm, ⟨15, _⟩ => ⟨S_, .i32⟩
  | .hbm, ⟨16, _⟩ => ⟨S625000, .i32⟩
  | .hbm, ⟨17, _⟩ => ⟨S625000, .i32⟩
  | .hbm, ⟨18, _⟩ => ⟨S625000, .i32⟩
  | .hbm, ⟨19, _⟩ => ⟨S625000x1, .i32⟩
  | .hbm, ⟨20, _⟩ => ⟨S625000x128, .f32⟩
  | .hbm, ⟨21, _⟩ => ⟨S_, .f32⟩
  | .hbm, ⟨22, _⟩ => ⟨S50000x128, .f32⟩
  | .hbm, ⟨23, _⟩ => ⟨S625000x1, .i32⟩
  | .hbm, ⟨24, _⟩ => ⟨S50000x128, .f32⟩
  | .hbm, ⟨25, _⟩ => ⟨S_, .f32⟩
  | .hbm, ⟨26, _⟩ => ⟨S625000, .f32⟩
  | .hbm, ⟨27, _⟩ => ⟨S_, .f32⟩
  | .hbm, ⟨28, _⟩ => ⟨S50000, .f32⟩
  | .hbm, ⟨29, _⟩ => ⟨S625000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S1x625000, .i32⟩
  | .hbm, ⟨49, _⟩ => ⟨S625000, .i32⟩
  | .hbm, ⟨50, _⟩ => ⟨S1x625000, .i32⟩
  | .hbm, ⟨51, _⟩ => ⟨S625000, .i32⟩
  | .hbm, ⟨52, _⟩ => ⟨S_, .i32⟩
  | .hbm, ⟨53, _⟩ => ⟨S625000, .i32⟩
  | .hbm, ⟨54, _⟩ => ⟨S625000, .i1⟩
  | .hbm, ⟨55, _⟩ => ⟨S_, .i32⟩
  | .hbm, ⟨56, _⟩ => ⟨S625000, .i32⟩
  | .hbm, ⟨57, _⟩ => ⟨S625000, .i32⟩
  | .hbm, ⟨58, _⟩ => ⟨S625000, .i32⟩
  | .hbm, ⟨59, _⟩ => ⟨S625000x1, .i32⟩
  | .hbm, ⟨60, _⟩ => ⟨S625000x128, .f32⟩
  | .hbm, ⟨61, _⟩ => ⟨S_, .f32⟩
  | .hbm, ⟨62, _⟩ => ⟨S50000x128, .f32⟩
  | .hbm, ⟨63, _⟩ => ⟨S625000x1, .i32⟩
  | .hbm, ⟨64, _⟩ => ⟨S50000x128, .f32⟩
  | .hbm, ⟨65, _⟩ => ⟨S_, .f32⟩
  | .hbm, ⟨66, _⟩ => ⟨S625000, .f32⟩
  | .hbm, ⟨67, _⟩ => ⟨S_, .f32⟩
  | .hbm, ⟨68, _⟩ => ⟨S50000, .f32⟩
  | .hbm, ⟨69, _⟩ => ⟨S625000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S128x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S128x128, .f32⟩
  | .hbm, ⟨83, _⟩ => ⟨S50000x128, .f32⟩
  | .hbm, ⟨84, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  scatter_S50000_S625000x1_S625000_n_0_0_1_wf : ScatterDims.WF S50000 S625000x1 S625000 [] [0] [0] 1
  dot_S50000x128_S128x128_S50000x128_1_0_0_1_n_n_wf : DotDims.WF S50000x128 S128x128 S50000x128 [1] [0] [0] [1] [] []

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The whole program's run with its RESULT named.  The program is four stretches in order — host operations, the
  first dense stage, host operations, the second dense stage — and after the last stretch every buffer of the
  device holds what the chain of stretches leaves in it (the contents `W4`): the result buffer among them, and
  the eight argument arrays as they were at launch.
-/
import proofs.«171911_j39702677684847_1_alg».proof.Proof.Gen.KernelIdeal.Frame

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at what the second stage's
    write-backs leave in it, and the arguments end as launched. -/
theorem run_result : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Sage

end
-- ==== Proof.Body.lean ====
/-
  What one grid point of either dense stage computes, entry by entry, over the extended reals.

  A point holds a block of 5000 rows of the aggregated neighbour features `A`, the same rows of the node
  features `X`, two 128 x 128 matrices `Wl`, `Wr` (already transposed, so that the contraction runs over
  the FIRST axis of each) and the bias as a single row `b`.  The stored block is, at row `p` and column `q`,

      (sum_k A[p,k] * Wl[k,q]  +  b[0,q])  +  sum_k X[p,k] * Wr[k,q]

  and the first stage clamps this below at zero.  Rounding the operands to bfloat16 before each product is
  the identity over the extended reals, a product into a zero accumulator is the plain sum of products, and
  the casts of a block to its own shape are the identity.
-/
import proofs.«171911_j39702677684847_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Sage

open Idealize.ShloMosaic Idealize.ShloMosaic.ValueIdx Cert.KernelIdeal Cert.KernelIdeal.Gen

/-- Row `p` of a block of rows against column `q` of a square matrix: the sum over the shared axis. -/
def rowCol (A : S5000x128.Idx → EReal) (W : S128x128.Idx → EReal) (p : Fin 5000) (q : Fin 128) : EReal :=
  ∑ k : Fin 128, A (ix2 p k) * W (ix2 k q)

/-- The coordinates of the product's index maps: the left operand is read at the result's row and the contracted
    position, the right operand at the contracted position and the result's column. -/
theorem lhs_row (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_contr (i : S5000x128.Idx) (c : dot_S5000x128_S128x128_S5000x128_1_0_0_1_n_n.contr.Idx) : (dot_S5000x128_S128x128_S5000x128_1_0_0_1_n_n.lhsIdx i c 1).val = (c ⟨0, by decide⟩).val :=
  dot_S5000x128_S128x128_S5000x128_1_0_0_1_n_n.lhsIdx_val_of_single rfl i c
theorem rhs_contr (i : S5000x128.Idx) (c : dot_S5000x128_S128x128_S5000x128_1_0_0_1_n_n.contr.Idx) : (dot_S5000x128_S128x128_S5000x128_1_0_0_1_n_n.rhsIdx i c 0).val = (c ⟨0, by decide⟩).val :=
  dot_S5000x128_S128x128_S5000x128_1_0_0_1_n_n.rhsIdx_val_of_single rfl i c
theorem rhs_col (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The matrix product of a block with a square matrix, started from zero, read at one entry. -/
theorem matmul_at {φ₁ φ₂ : FTy} (A : FVec Ideal S5000x128 φ₁) (W : FVec Ideal S128x128 φ₂) (p : Fin 5000) (q : Fin 128) :
    matmul dot_S5000x128_S128x128_S5000x128_1_0_0_1_n_n none A W (constant S5000x128 .f32 0x00000000#32) (ix2 p q)
      = rowCol A W p q := by
  unfold rowCol
  refine (Ideal.matmul_constant_zero_apply dot_S5000x128_S128x128_S5000x128_1_0_0_1_n_n none A W (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_contr _ _).trans hk
      | ⟨1, _⟩ => exact rhs_col _ _)
  rw [el, er]

/-- The block a point of either stage forms before any clamping, at row `p` and column `q`. -/
def affine (A X : S5000x128.Idx → EReal) (Wl Wr : S128x128.Idx → EReal) (b : S1x128.Idx → EReal)
    (p : Fin 5000) (q : Fin 128) : EReal :=
  (rowCol A Wl p q + b (ix2 (0 : Fin 1) q)) + rowCol X Wr p q

/-- The second stage stores the affine block as it is. -/
theorem stage2_at (x0 x1 : Vec Ideal S5000x128 .f32) (x2 x4 : Vec Ideal S128x128 .f32) (x3 : Vec Ideal S1x128 .f32)
    (p : Fin 5000) (q : Fin 128) :
    k1_pay1 (F := Ideal) x0 x1 x2 x4 x3 (ix2 p q) = affine x0 x1 x2 x4 x3 p q := by
  unfold k1_pay1 affine
  simp only [shapeCast_self]
  show (_ + _) + _ = _
  rw [matmul_at, matmul_at, broadcastTo_1b_ab_apply]
  rfl

/-- The first stage clamps the affine block below at zero. -/
theorem stage1_at (x0 x1 : Vec Ideal S5000x128 .f32) (x2 x4 : Vec Ideal S128x128 .f32) (x3 : Vec Ideal S1x128 .f32)
    (p : Fin 5000) (q : Fin 128) :
    k0_pay1 (F := Ideal) x0 x1 x2 x4 x3 (ix2 p q) = max (affine x0 x1 x2 x4 x3 p q) 0 := by
  unfold k0_pay1 affine
  simp only [shapeCast_self]
  show max ((_ + _) + _) _ = _
  rw [matmul_at, matmul_at, broadcastTo_1b_ab_apply]
  show max _ (Ideal.ofBits .f32 0x00000000#32) = _
  rw [Ideal.ofBits_zero_f32]
  rfl

end Cert.KernelIdeal.Sage

end
-- ==== Proof.Stage.lean ====
/-
  From blocks to arrays.  Each dense stage runs over ten grid points; point `t` reads rows 5000 t … 5000 t + 4999
  of the aggregated features and of the node features, the two matrices and the bias whole, and writes the same
  rows of the result.  So the result array, after the ten points, is ONE function of the arrays the call
  finds: at row `r` and column `q`

      (sum_k A[r,k] * Wl[k,q]  +  b[0,q])  +  sum_k X[r,k] * Wr[k,q]

  (clamped below at zero in the first stage), because every point's block is the restriction of that function
  to the point's rows and the ten blocks of rows cover the array.
-/
import proofs.«171911_j39702677684847_1_alg».proof.Proof.Body
import proofs.«171911_j39702677684847_1_alg».proof.Proof.Gen.KernelIdeal.Frame
import Idealize.ShloMosaic.Lib.Pipeline.Value

set_option maxRecDepth 16384

noncomputable section

namespace Cert.KernelIdeal.Sage

open Idealize.ShloMosaic Idealize.ShloMosaic.TcCoe Idealize.ShloMosaic.ValueIdx Idealize.SL.Sem
open Cert.KernelIdeal Cert.KernelIdeal.Gen
open Idealize.ShloMosaic.Pipeline (Dat)

theorem hz : (![0, 0] : Fin 2 → Nat) = fun _ => 0 := funext fun a => by fin_cases a <;> rfl

/-- One entry of a dense stage before clamping: row `r` of the two feature arrays against column `q` of the two
    matrices, plus the bias at `q`. -/
def denseEntry (A X : S50000x128.Idx → EReal) (Wl Wr : S128x128.Idx → EReal) (b : S1x128.Idx → EReal)
    (r : Fin 50000) (q : Fin 128) : EReal :=
  ((∑ k : Fin 128, A (ix2 r k) * Wl (ix2 k q)) + b (ix2 (0 : Fin 1) q)) + ∑ k : Fin 128, X (ix2 r k) * Wr (ix2 k q)

/-- The second stage as one function of whole arrays. -/
def stage2 (A X : S50000x128.Idx → EReal) (Wl Wr : S128x128.Idx → EReal) (b : S1x128.Idx → EReal) :
    S50000x128.Idx → EReal :=
  fun i => denseEntry A X Wl Wr b ⟨(i 0).val, (i 0).isLt⟩ ⟨(i 1).val, (i 1).isLt⟩

/-- The first stage as one function of whole arrays: the same, clamped below at zero. -/
def stage1 (A X : S50000x128.Idx → EReal) (Wl Wr : S128x128.Idx → EReal) (b : S1x128.Idx → EReal) :
    S50000x128.Idx → EReal :=
  fun i => max (denseEntry A X Wl Wr b ⟨(i 0).val, (i 0).isLt⟩ ⟨(i 1).val, (i 1).isLt⟩) 0

/-- If a block of 5000 rows holds rows `5000 n …` of `A` and of `X`, and the matrices and the bias are whole, the
    affine block at `(p, q)` is the dense entry at row `5000 n + p`. -/
theorem affine_block (A X : S50000x128.Idx → EReal) (Wl Wr : S128x128.Idx → EReal) (b : S1x128.Idx → EReal)
    (x0 x1 : S5000x128.Idx → EReal) (x2 x4 : S128x128.Idx → EReal) (x3 : S1x128.Idx → EReal) (n : Nat)
    (h0 : ∀ (y : S5000x128.Idx) (i : S50000x128.Idx), (i 0).val = n * 5000 + (y 0).val → (i 1).val = (y 1).val → x0 y = A i)
    (h1 : ∀ (y : S5000x128.Idx) (i : S50000x128.Idx), (i 0).val = n * 5000 + (y 0).val → (i 1).val = (y 1).val → x1 y = X i)
    (h2 : x2 = Wl) (h4 : x4 = Wr) (h3 : x3 = b)
    (p : Fin 5000) (q : Fin 128) (r : Fin 50000) (hr : r.val = n * 5000 + p.val) :
    affine x0 x1 x2 x4 x3 p q = denseEntry A X Wl Wr b r q := by
  subst h2 h4 h3
  unfold affine denseEntry rowCol
  have e0 : ∀ k : Fin 128, x0 (ix2 p k) = A (ix2 r k) := fun k => h0 (ix2 p k) (ix2 r k) hr rfl
  have e1 : ∀ k : Fin 128, x1 (ix2 p k) = X (ix2 r k) := fun k => h1 (ix2 p k) (ix2 r k) hr rfl
  simp only [e0, e1]

theorem stage2_block (A X : S50000x128.Idx → EReal) (Wl Wr : S128x128.Idx → EReal) (b : S1x128.Idx → EReal)
    (x0 x1 : S5000x128.Idx → EReal) (x2 x4 : S128x128.Idx → EReal) (x3 : S1x128.Idx → EReal) (n : Nat)
    (h0 : ∀ (y : S5000x128.Idx) (i : S50000x128.Idx), (i 0).val = n * 5000 + (y 0).val → (i 1).val = (y 1).val → x0 y = A i)
    (h1 : ∀ (y : S5000x128.Idx) (i : S50000x128.Idx), (i 0).val = n * 5000 + (y 0).val → (i 1).val = (y 1).val → x1 y = X i)
    (h2 : x2 = Wl) (h4 : x4 = Wr) (h3 : x3 = b)
    (y : S5000x128.Idx) (i : S50000x128.Idx) (hi0 : (i 0).val = n * 5000 + (y 0).val) (hi1 : (i 1).val = (y 1).val) :
    k1_pay1 (F := Ideal) x0 x1 x2 x4 x3 y = stage2 A X Wl Wr b i := by
  obtain ⟨p, q, rfl⟩ : ∃ (p : Fin 5000) (q : Fin 128), y = ix2 p q := ⟨y 0, y 1, eq_ix2 y⟩
  rw [stage2_at]
  unfold stage2
  have hq : (⟨(i 1).val, (i 1).isLt⟩ : Fin 128) = q := Fin.ext hi1
  rw [hq]
  exact affine_block A X Wl Wr b x0 x1 x2 x4 x3 n h0 h1 h2 h4 h3 p q ⟨(i 0).val, (i 0).isLt⟩ hi0

theorem stage1_block (A X : S50000x128.Idx → EReal) (Wl Wr : S128x128.Idx → EReal) (b : S1x128.Idx → EReal)
    (x0 x1 : S5000x128.Idx → EReal) (x2 x4 : S128x128.Idx → EReal) (x3 : S1x128.Idx → EReal) (n : Nat)
    (h0 : ∀ (y : S5000x128.Idx) (i : S50000x128.Idx), (i 0).val = n * 5000 + (y 0).val → (i 1).val = (y 1).val → x0 y = A i)
    (h1 : ∀ (y : S5000x128.Idx) (i : S50000x128.Idx), (i 0).val = n * 5000 + (y 0).val → (i 1).val = (y 1).val → x1 y = X i)
    (h2 : x2 = Wl) (h4 : x4 = Wr) (h3 : x3 = b)
    (y : S5000x128.Idx) (i : S50000x128.Idx) (hi0 : (i 0).val = n * 5000 + (y 0).val) (hi1 : (i 1).val = (y 1).val) :
    k0_pay1 (F := Ideal) x0 x1 x2 x4 x3 y = stage1 A X Wl Wr b i := by
  obtain ⟨p, q, rfl⟩ : ∃ (p : Fin 5000) (q : Fin 128), y = ix2 p q := ⟨y 0, y 1, eq_ix2 y⟩
  rw [stage1_at]
  unfold stage1
  have hq : (⟨(i 1).val, (i 1).isLt⟩ : Fin 128) = q := Fin.ext hi1
  rw [hq]
  exact congrArg (max · 0) (affine_block A X Wl Wr b x0 x1 x2 x4 x3 n h0 h1 h2 h4 h3 p q ⟨(i 0).val, (i 0).isLt⟩ hi0)

variable (V : (c : Dev nD) → (b : Ref sig .tc) → Buf (Elt Ideal) ((c : Thread nD τ).loc b))

/-! ## Pallas call 0 -/

/-- Where each window's block sits at grid point `t`: the three row-blocked windows (the aggregated features, the
    node features, the result) are at block row `t`, and the two matrices and the bias are whole at every point. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `y` of the block of aggregated features at point `t` is row `5000 t + y` of the array. -/
theorem rows0_0 (c : Dev nD) (t : Fin cfg0.N) (y : S5000x128.Idx) (i : S50000x128.Idx)
    (h0 : (i 0).val = t.val * 5000 + (y 0).val) (h1 : (i 1).val = (y 1).val) :
    (iblk0 V c 0 t : S5000x128.Idx → EReal) y = (V c main_v24 : S50000x128.Idx → EReal) i := by
  obtain ⟨e0, e1, -⟩ := idx0 t
  show V c main_v24 (((cfg0.win 0).blk t).view.emb y) = V c main_v24 i
  refine congrArg _ (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The same for the block of node features. -/
theorem rows0_1 (c : Dev nD) (t : Fin cfg0.N) (y : S5000x128.Idx) (i : S50000x128.Idx)
    (h0 : (i 0).val = t.val * 5000 + (y 0).val) (h1 : (i 1).val = (y 1).val) :
    (iblk0 V c 1 t : S5000x128.Idx → EReal) y = (V c main_arg0 : S50000x128.Idx → EReal) i := by
  obtain ⟨-, -, e0, e1, -⟩ := idx0 t
  show V c main_arg0 (((cfg0.win 1).blk t).view.emb y) = V c main_arg0 i
  refine congrArg _ (funext fun a => Fin.ext ?_)
  match a with
  | ⟨0, _⟩ => show win0_1.index t (0 : Fin 2) * 5000 + 1 * (y 0).val = (i 0).val; rw [e0, h0]; omega
  | ⟨1, _⟩ => show win0_1.index t (1 : Fin 2) * 128 + 1 * (y 1).val = (i 1).val; rw [e1, h1]; omega

/-- The left matrix's block is the whole matrix at every point. -/
theorem whole0_2 (c : Dev nD) (t : Fin cfg0.N) :
    (iblk0 V c 2 t : S128x128.Idx → EReal) = (V c main_v25 : S128x128.Idx → EReal) := by
  obtain ⟨-, -, -, -, e0, e1, -⟩ := idx0 t
  funext y
  show V c main_v25 (((cfg0.win 2).blk t).view.emb y) = V c main_v25 y
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The bias row's block is the whole row at every point. -/
theorem whole0_3 (c : Dev nD) (t : Fin cfg0.N) :
    (iblk0 V c 3 t : S1x128.Idx → EReal) = (V c main_v27 : S1x128.Idx → EReal) := by
  obtain ⟨-, -, -, -, -, -, e0, e1, -⟩ := idx0 t
  funext y
  show V c main_v27 (((cfg0.win 3).blk t).view.emb y) = V c main_v27 y
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The right matrix's block is the whole matrix at every point. -/
theorem whole0_4 (c : Dev nD) (t : Fin cfg0.N) :
    (iblk0 V c 4 t : S128x128.Idx → EReal) = (V c main_v26 : S128x128.Idx → EReal) := by
  obtain ⟨-, -, -, -, -, -, -, -, e0, e1, -⟩ := idx0 t
  funext y
  show V c main_v26 (((cfg0.win 4).blk t).view.emb y) = V c main_v26 y
  refine congrArg _ (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- What point `t` writes back is block `t` of the first stage of the arrays as the call finds them. -/
theorem flushed0 (c : Dev nD) (t : Fin cfg0.N) :
    (dat0 V c).flushed 5 t = ((cfg0.win 5).blk t).view.read (Elt Ideal)
      (stage1 (V c main_v24) (V c main_arg0) (V c main_v25) (V c main_v26) (V c main_v27)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx0 t
  funext j
  show k0_pay1 (F := Ideal) (iblk0 V c 0 t) (iblk0 V c 1 t) (iblk0 V c 2 t) (iblk0 V c 4 t) (iblk0 V c 3 t) j
    = stage1 (V c main_v24) (V c main_arg0) (V c main_v25) (V c main_v26) (V c main_v27) (((cfg0.win 5).blk t).view.emb j)
  refine stage1_block (V c main_v24) (V c main_arg0) (V c main_v25) (V c main_v26) (V c main_v27)
    (iblk0 V c 0 t) (iblk0 V c 1 t) (iblk0 V c 2 t) (iblk0 V c 4 t) (iblk0 V c 3 t) t.val
    (fun y i h0 h1 => rows0_0 V c t y i h0 h1) (fun y i h0 h1 => rows0_1 V c t y i h0 h1)
    (whole0_2 V c t) (whole0_4 V c t) (whole0_3 V c t) j _ ?_ ?_
  · show win0_5.index t (0 : Fin 2) * 5000 + 1 * (j 0).val = t.val * 5000 + (j 0).val; rw [e0]; omega
  · show win0_5.index t (1 : Fin 2) * 128 + 1 * (j 1).val = (j 1).val; rw [e1]; omega

/-- An index of the result array is in point `t`'s block exactly when each coordinate is in the block's range. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28).slice (win0_5.rect t)).set ↔ _
  rw [View.set_slice_whole, Rect.mem_set_unit]
  exact Iff.rfl

/-- Every row of the result lies in the block of the point numbered by the row divided by 5000. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_5 _, ?_⟩
  rw [mem_blk0]
  obtain ⟨-, -, -, -, -, -, -, -, -, -, e0, e1⟩ := idx0 ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e1]; omega

/-- The result array after the call: the first stage of the arrays as the call finds them. -/
theorem final0 (c : Dev nD) : (dat0 V c).arrAt 5 cfg0.N
    = stage1 (V c main_v24) (V c main_arg0) (V c main_v25) (V c main_v26) (V c main_v27) :=
  (dat0 V c).arrAt_eq_of_cover 5 _ (fun t _ => flushed0 V c t) (cover0)

/-! ## Pallas call 1 -/

/-- Where each window's block sits at grid point `t`: the three row-blocked windows (the aggregated features, the
    node features, the result) are at block row `t`, and the two matrices and the bias are whole at every point. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `y` of the block of aggregated features at point `t` is row `5000 t + y` of the array. -/
theorem rows1_0 (c : Dev nD) (t : Fin cfg1.N) (y : S5000x128.Idx) (i : S50000x128.Idx)
    (h0 : (i 0).val = t.val * 5000 + (y 0).val) (h1 : (i 1).val = (y 1).val) :
    (iblk1 V c 0 t : S5000x128.Idx → EReal) y = (V c main_v40 : S50000x128.Idx → EReal) i := by
  obtain ⟨e0, e1, -⟩ := idx1 t
  show V c main_v40 (((cfg1.win 0).blk t).view.emb y) = V c main_v40 i
  refine congrArg _ (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The same for the block of node features. -/
theorem rows1_1 (c : Dev nD) (t : Fin cfg1.N) (y : S5000x128.Idx) (i : S50000x128.Idx)
    (h0 : (i 0).val = t.val * 5000 + (y 0).val) (h1 : (i 1).val = (y 1).val) :
    (iblk1 V c 1 t : S5000x128.Idx → EReal) y = (V c main_v28 : S50000x128.Idx → EReal) i := by
  obtain ⟨-, -, e0, e1, -⟩ := idx1 t
  show V c main_v28 (((cfg1.win 1).blk t).view.emb y) = V c main_v28 i
  refine congrArg _ (funext fun a => Fin.ext ?_)
  match a with
  | ⟨0, _⟩ => show win1_1.index t (0 : Fin 2) * 5000 + 1 * (y 0).val = (i 0).val; rw [e0, h0]; omega
  | ⟨1, _⟩ => show win1_1.index t (1 : Fin 2) * 128 + 1 * (y 1).val = (i 1).val; rw [e1, h1]; omega

/-- The left matrix's block is the whole matrix at every point. -/
theorem whole1_2 (c : Dev nD) (t : Fin cfg1.N) :
    (iblk1 V c 2 t : S128x128.Idx → EReal) = (V c main_v41 : S128x128.Idx → EReal) := by
  obtain ⟨-, -, -, -, e0, e1, -⟩ := idx1 t
  funext y
  show V c main_v41 (((cfg1.win 2).blk t).view.emb y) = V c main_v41 y
  refine congrArg _ (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The bias row's block is the whole row at every point. -/
theorem whole1_3 (c : Dev nD) (t : Fin cfg1.N) :
    (iblk1 V c 3 t : S1x128.Idx → EReal) = (V c main_v43 : S1x128.Idx → EReal) := by
  obtain ⟨-, -, -, -, -, -, e0, e1, -⟩ := idx1 t
  funext y
  show V c main_v43 (((cfg1.win 3).blk t).view.emb y) = V c main_v43 y
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The right matrix's block is the whole matrix at every point. -/
theorem whole1_4 (c : Dev nD) (t : Fin cfg1.N) :
    (iblk1 V c 4 t : S128x128.Idx → EReal) = (V c main_v42 : S128x128.Idx → EReal) := by
  obtain ⟨-, -, -, -, -, -, -, -, e0, e1, -⟩ := idx1 t
  funext y
  show V c main_v42 (((cfg1.win 4).blk t).view.emb y) = V c main_v42 y
  refine congrArg _ (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- What point `t` writes back is block `t` of the second stage of the arrays as the call finds them. -/
theorem flushed1 (c : Dev nD) (t : Fin cfg1.N) :
    (dat1 V c).flushed 5 t = ((cfg1.win 5).blk t).view.read (Elt Ideal)
      (stage2 (V c main_v40) (V c main_v28) (V c main_v41) (V c main_v42) (V c main_v43)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx1 t
  funext j
  show k1_pay1 (F := Ideal) (iblk1 V c 0 t) (iblk1 V c 1 t) (iblk1 V c 2 t) (iblk1 V c 4 t) (iblk1 V c 3 t) j
    = stage2 (V c main_v40) (V c main_v28) (V c main_v41) (V c main_v42) (V c main_v43) (((cfg1.win 5).blk t).view.emb j)
  refine stage2_block (V c main_v40) (V c main_v28) (V c main_v41) (V c main_v42) (V c main_v43)
    (iblk1 V c 0 t) (iblk1 V c 1 t) (iblk1 V c 2 t) (iblk1 V c 4 t) (iblk1 V c 3 t) t.val
    (fun y i h0 h1 => rows1_0 V c t y i h0 h1) (fun y i h0 h1 => rows1_1 V c t y i h0 h1)
    (whole1_2 V c t) (whole1_4 V c t) (whole1_3 V c t) j _ ?_ ?_
  · show win1_5.index t (0 : Fin 2) * 5000 + 1 * (j 0).val = t.val * 5000 + (j 0).val; rw [e0]; omega
  · show win1_5.index t (1 : Fin 2) * 128 + 1 * (j 1).val = (j 1).val; rw [e1]; omega

/-- An index of the result array is in point `t`'s block exactly when each coordinate is in the block's range. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v44).slice (win1_5.rect t)).set ↔ _
  rw [View.set_slice_whole, Rect.mem_set_unit]
  exact Iff.rfl

/-- Every row of the result lies in the block of the point numbered by the row divided by 5000. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_5 _, ?_⟩
  rw [mem_blk1]
  obtain ⟨-, -, -, -, -, -, -, -, -, -, e0, e1⟩ := idx1 ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e1]; omega

/-- The result array after the call: the second stage of the arrays as the call finds them. -/
theorem final1 (c : Dev nD) : (dat1 V c).arrAt 5 cfg1.N
    = stage2 (V c main_v40) (V c main_v28) (V c main_v41) (V c main_v42) (V c main_v43) :=
  (dat1 V c).arrAt_eq_of_cover 5 _ (fun t _ => flushed1 V c t) (cover1)

end Cert.KernelIdeal.Sage

end
-- ==== Proof.Glue.lean ====
/-
  The host operations around the two dense stages, carried as whole-array functions that are never opened.

  From the edge list the program takes the source row `s` and the destination row `d`; counts, for every node, the
  edges that end there (a sum of ones scattered by `d`), clamps the count below at one and inverts it; and, for a
  feature array `x`, gathers the rows `x[s]`, sums them by destination, and scales every row of the sum by the
  inverted count of its node: the mean of the neighbours' features.  The first stage is fed the mean of the input
  features, the second the mean of the first stage's result.  This module names those functions and shows that
  the buffer the program returns holds the second stage of the first.
-/
import proofs.«171911_j39702677684847_1_alg».proof.Proof.Stage
import Idealize.ShloMosaic.Lib.StableHlo.Run

set_option maxRecDepth 16384

noncomputable section

namespace Cert.KernelIdeal.Sage

open Idealize.ShloMosaic Idealize.ShloMosaic.TcCoe Idealize.ShloMosaic.ValueIdx Idealize.SL.Sem Idealize.ShloMosaic.StableHlo
open Cert.KernelIdeal Cert.KernelIdeal.Gen

abbrev Feat := (⟨S50000x128, .f32⟩ : BufTy).Contents (Elt Ideal)
abbrev Edges := (⟨S2x625000, .i32⟩ : BufTy).Contents (Elt Ideal)
abbrev EdgeRow := (⟨S625000, .i32⟩ : BufTy).Contents (Elt Ideal)
abbrev Mat := (⟨S128x128, .f32⟩ : BufTy).Contents (Elt Ideal)
abbrev Bias := (⟨S128, .f32⟩ : BufTy).Contents (Elt Ideal)
abbrev Col := (⟨S50000x1, .f32⟩ : BufTy).Contents (Elt Ideal)

/-- The source node of every edge: row 0 of the edge list. -/
def srcOf (e : Edges) : EdgeRow :=
  shapeCast S625000 (extractStridedSlice S1x625000 ![0, 0] e slices_S2x625000_S1x625000_0_0) shapeCasts_S1x625000_S625000

/-- The destination node of every edge: row 1 of the edge list. -/
def dstOf (e : Edges) : EdgeRow :=
  shapeCast S625000 (extractStridedSlice S1x625000 ![1, 0] e slices_S2x625000_S1x625000_1_0) shapeCasts_S1x625000_S625000

/-- For every node, the number of edges that end there: ones summed by the edges' destinations. -/
def countOf (d : EdgeRow) : (⟨S50000, .f32⟩ : BufTy).Contents (Elt Ideal) :=
  Host.scatterAdd (F := Ideal) scatter_S50000_S625000x1_S625000_n_0_0_1
    (broadcastInDim S50000 ![] bcast_S_S50000 (constant (F := Ideal) S_ .f32 0x00000000#32))
    (broadcastInDim S625000x1 ![0] bcast_S625000_S625000x1_0 d)
    (broadcastInDim S625000 ![] bcast_S_S625000 (constant (F := Ideal) S_ .f32 0x3F800000#32))

/-- For every node, one over that number clamped below at one; as a column. -/
def invCountOf (d : EdgeRow) : Col :=
  shapeCast S50000x1
    (Host.divf (F := Ideal) (broadcastInDim S50000 ![] bcast_S_S50000 (constant (F := Ideal) S_ .f32 0x3F800000#32))
      (maximumf (countOf d) (broadcastInDim S50000 ![] bcast_S_S50000 (constant (F := Ideal) S_ .f32 0x3F800000#32))))
    shapeCasts_S50000_S50000x1

/-- The rows of `x` at the edges' sources, summed by the edges' destinations. -/
def sumOf (x : Feat) (s d : EdgeRow) : Feat :=
  Host.scatterAdd (F := Ideal) scatter_S50000x128_S625000x1_S625000x128_1_0_0_1
    (broadcastInDim S50000x128 ![] bcast_S_S50000x128 (constant (F := Ideal) S_ .f32 0x00000000#32))
    (broadcastInDim S625000x1 ![0] bcast_S625000_S625000x1_0 d)
    (Host.gather gather_S50000x128_S625000x1_S625000x128_1_0_n_n_0_1_1128 x
      (broadcastInDim S625000x1 ![0] bcast_S625000_S625000x1_0
        (select (cmpi .slt s (broadcastInDim S625000 ![] bcast_S_S625000 (constantI S_ 32 0#32)))
          (addi s (broadcastInDim S625000 ![] bcast_S_S625000 (constantI S_ 32 50000#32))) s)))

/-- The neighbours' mean as the program forms it: the sum scaled, row by row, by the inverted count. -/
def meanOf (x : Feat) (s d : EdgeRow) (w : Col) : Feat :=
  mulf (F := Ideal) (s := S50000x128) (φ := .f32) (sumOf x s d) (broadcastInDim S50000x128 ![0, 1] bcast_S50000x1_S50000x128_0_1 w)

/-- The first stage's result from the arguments. -/
def hiddenOf (x : Feat) (e : Edges) (wl : Mat) (b : Bias) (wr : Mat) : Feat :=
  stage1 (meanOf x (srcOf e) (dstOf e) (invCountOf (dstOf e))) x
    (transpose S128x128 [1, 0] wl transposes_S128x128_S128x128_1_0)
    (transpose S128x128 [1, 0] wr transposes_S128x128_S128x128_1_0)
    (shapeCast S1x128 b shapeCasts_S128_S1x128)

/-- The program's result from the arguments: the second stage of the first stage's result. -/
def resultOf (x : Feat) (e : Edges) (w1l : Mat) (b1 : Bias) (w1r : Mat) (w2l : Mat) (b2 : Bias) (w2r : Mat) : Feat :=
  stage2 (meanOf (hiddenOf x e w1l b1 w1r) (srcOf e) (dstOf e) (invCountOf (dstOf e))) (hiddenOf x e w1l b1 w1r)
    (transpose S128x128 [1, 0] w2l transposes_S128x128_S128x128_1_0)
    (transpose S128x128 [1, 0] w2r transposes_S128x128_S128x128_1_0)
    (shapeCast S1x128 b2 shapeCasts_S128_S1x128)

variable (m : (ℓ : Loc nD τ sig) → Buf (Elt Ideal) ℓ) (ρ : Dev nD → PrngReg)

/-! ## What the first stage finds -/

theorem in0_mean (c : Dev nD) : (V1 m ρ c main_v24 : Feat)
    = meanOf (m ((c.tc : Thread nD τ).loc main_arg0)) (srcOf (m ((c.tc : Thread nD τ).loc main_arg1))) (dstOf (m ((c.tc : Thread nD τ).loc main_arg1))) (invCountOf (dstOf (m ((c.tc : Thread nD τ).loc main_arg1)))) := by
  show StableHlo.after hostOps0 (W0 m ρ c) (Proc.devRef .tc main_v24) = _
  after_results_simp <;> rfl

theorem in0_feat (c : Dev nD) : (V1 m ρ c main_arg0 : Feat) = m ((c.tc : Thread nD τ).loc main_arg0) := by
  show StableHlo.after hostOps0 (W0 m ρ c) (Proc.devRef .tc main_arg0) = _
  after_results_simp <;> rfl

theorem in0_wl (c : Dev nD) : (V1 m ρ c main_v25 : Mat) = transpose S128x128 [1, 0] (m ((c.tc : Thread nD τ).loc main_arg2)) transposes_S128x128_S128x128_1_0 := by
  show StableHlo.after hostOps0 (W0 m ρ c) (Proc.devRef .tc main_v25) = _
  after_results_simp <;> rfl

theorem in0_wr (c : Dev nD) : (V1 m ρ c main_v26 : Mat) = transpose S128x128 [1, 0] (m ((c.tc : Thread nD τ).loc main_arg4)) transposes_S128x128_S128x128_1_0 := by
  show StableHlo.after hostOps0 (W0 m ρ c) (Proc.devRef .tc main_v26) = _
  after_results_simp <;> rfl

theorem in0_bias (c : Dev nD) : (V1 m ρ c main_v27 : (⟨S1x128, .f32⟩ : BufTy).Contents (Elt Ideal)) = shapeCast S1x128 (m ((c.tc : Thread nD τ).loc main_arg3)) shapeCasts_S128_S1x128 := by
  show StableHlo.after hostOps0 (W0 m ρ c) (Proc.devRef .tc main_v27) = _
  after_results_simp <;> rfl

/-! ## What is in the buffers between the stages -/

theorem mid_hidden (c : Dev nD) : (W2 m ρ c (Proc.devRef .tc main_v28) : Feat)
    = hiddenOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 5).trans ((final0 (V1 m ρ) c).trans ?_)
  rw [in0_mean m ρ c, in0_feat m ρ c, in0_wl m ρ c, in0_wr m ρ c, in0_bias m ρ c]
  rfl

theorem mid_src (c : Dev nD) : (W2 m ρ c (Proc.devRef .tc main_v1) : EdgeRow) = srcOf (m ((c.tc : Thread nD τ).loc main_arg1)) := by
  refine (W2_of_ne m ρ c main_v1 (by decide)).trans ?_
  show StableHlo.after hostOps0 (W0 m ρ c) (Proc.devRef .tc main_v1) = _
  after_results_simp <;> rfl

theorem mid_dst (c : Dev nD) : (W2 m ρ c (Proc.devRef .tc main_v3) : EdgeRow) = dstOf (m ((c.tc : Thread nD τ).loc main_arg1)) := by
  refine (W2_of_ne m ρ c main_v3 (by decide)).trans ?_
  show StableHlo.after hostOps0 (W0 m ρ c) (Proc.devRef .tc main_v3) = _
  after_results_simp <;> rfl

theorem mid_inv (c : Dev nD) : (W2 m ρ c (Proc.devRef .tc main_v12) : Col) = invCountOf (dstOf (m ((c.tc : Thread nD τ).loc main_arg1))) := by
  refine (W2_of_ne m ρ c main_v12 (by decide)).trans ?_
  show StableHlo.after hostOps0 (W0 m ρ c) (Proc.devRef .tc main_v12) = _
  after_results_simp <;> rfl

theorem mid_arg (c : Dev nD) (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = W0 m ρ c (Proc.devRef .tc b) :=
  (W2_of_ne m ρ c b hb).trans h0

/-! ## What the second stage finds -/

theorem in1_mean (c : Dev nD) : (V3 m ρ c main_v40 : Feat)
    = meanOf (W2 m ρ c (Proc.devRef .tc main_v28)) (W2 m ρ c (Proc.devRef .tc main_v1)) (W2 m ρ c (Proc.devRef .tc main_v3)) (W2 m ρ c (Proc.devRef .tc main_v12)) := by
  show StableHlo.after hostOps1 (W2 m ρ c) (Proc.devRef .tc main_v40) = _
  after_results_simp <;> rfl

theorem in1_feat (c : Dev nD) : (V3 m ρ c main_v28 : Feat) = W2 m ρ c (Proc.devRef .tc main_v28) := by
  show StableHlo.after hostOps1 (W2 m ρ c) (Proc.devRef .tc main_v28) = _
  after_results_simp

theorem in1_wl (c : Dev nD) : (V3 m ρ c main_v41 : Mat) = transpose S128x128 [1, 0] (W2 m ρ c (Proc.devRef .tc main_arg5)) transposes_S128x128_S128x128_1_0 := by
  show StableHlo.after hostOps1 (W2 m ρ c) (Proc.devRef .tc main_v41) = _
  after_results_simp <;> rfl

theorem in1_wr (c : Dev nD) : (V3 m ρ c main_v42 : Mat) = transpose S128x128 [1, 0] (W2 m ρ c (Proc.devRef .tc main_arg7)) transposes_S128x128_S128x128_1_0 := by
  show StableHlo.after hostOps1 (W2 m ρ c) (Proc.devRef .tc main_v42) = _
  after_results_simp <;> rfl

theorem in1_bias (c : Dev nD) : (V3 m ρ c main_v43 : (⟨S1x128, .f32⟩ : BufTy).Contents (Elt Ideal)) = shapeCast S1x128 (W2 m ρ c (Proc.devRef .tc main_arg6)) shapeCasts_S128_S1x128 := by
  show StableHlo.after hostOps1 (W2 m ρ c) (Proc.devRef .tc main_v43) = _
  after_results_simp <;> rfl

theorem mid_w2l (c : Dev nD) : (W2 m ρ c (Proc.devRef .tc main_arg5) : Mat) = m ((c.tc : Thread nD τ).loc main_arg5) := by
  refine (W2_of_ne m ρ c main_arg5 (by decide)).trans ?_
  show StableHlo.after hostOps0 (W0 m ρ c) (Proc.devRef .tc main_arg5) = _
  after_results_simp <;> rfl

theorem mid_w2r (c : Dev nD) : (W2 m ρ c (Proc.devRef .tc main_arg7) : Mat) = m ((c.tc : Thread nD τ).loc main_arg7) := by
  refine (W2_of_ne m ρ c main_arg7 (by decide)).trans ?_
  show StableHlo.after hostOps0 (W0 m ρ c) (Proc.devRef .tc main_arg7) = _
  after_results_simp <;> rfl

theorem mid_b2 (c : Dev nD) : (W2 m ρ c (Proc.devRef .tc main_arg6) : Bias) = m ((c.tc : Thread nD τ).loc main_arg6) := by
  refine (W2_of_ne m ρ c main_arg6 (by decide)).trans ?_
  show StableHlo.after hostOps0 (W0 m ρ c) (Proc.devRef .tc main_arg6) = _
  after_results_simp <;> rfl

/-! ## The returned buffer -/

/-- After the last stretch the result buffer holds the second stage of the first, as functions of the arguments. -/
theorem result_eq (c : Dev nD) : (W4 m ρ c (Proc.devRef .tc main_v44) : Feat)
    = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 5).trans ((final1 (V3 m ρ) c).trans ?_)
  rw [in1_mean m ρ c, in1_feat m ρ c, in1_wl m ρ c, in1_wr m ρ c, in1_bias m ρ c,
    mid_hidden m ρ c, mid_src m ρ c, mid_dst m ρ c, mid_inv m ρ c, mid_w2l m ρ c, mid_w2r m ρ c, mid_b2 m ρ c]
  rfl

end Cert.KernelIdeal.Sage

end
-- ==== Proof.Layer.lean ====
/-
  The one algebraic fact of the comparison.  The program scales the neighbours' sum by the INVERTED clamped count,
  `s * (1 / c)`, where the plain formulation divides, `s / c`.  Over the extended reals the quotient by a divisor
  other than zero is the product with the divisor's inverse, so the two agree for every `s` — finite or not —
  as soon as `c` is not zero; and the clamped count `max n 1` is at least one.  With it an entry of a dense stage
  fed by the program's mean is the same entry fed by the plain mean.
-/
import proofs.«171911_j39702677684847_1_alg».proof.Proof.Glue
import Idealize.ShloMosaic.Lib.ValueLayout

set_option maxRecDepth 16384

noncomputable section

namespace Cert.KernelIdeal.Sage

open Idealize.ShloMosaic Idealize.ShloMosaic.TcCoe Idealize.ShloMosaic.ValueIdx
open Cert.KernelIdeal Cert.KernelIdeal.Gen

/-- The word `0x3F800000` is the number one. -/
theorem one_bits : Ideal.ofBits .f32 0x3F800000#32 = ((1 : ℝ) : EReal) := by
  simp [Ideal.ofBits, Ideal.ieee, -EReal.coe_mul]
  norm_num

/-- Scaling by the inverse is dividing, whatever the dividend, for a divisor other than zero. -/
theorem mul_inv_eq_div (a d : EReal) (hd : d ≠ 0) : a * Ideal.div 1 d = Ideal.div a d := by
  unfold Ideal.div; rw [if_neg hd, if_neg hd, one_mul]

/-- A count clamped below at one is not zero. -/
theorem clamp_ne_zero (t : EReal) : max t (Ideal.ofBits .f32 0x3F800000#32) ≠ 0 := by
  rw [one_bits]
  have h : (0 : EReal) < max t ((1 : ℝ) : EReal) := lt_of_lt_of_le (by exact_mod_cast zero_lt_one) (le_max_right _ _)
  exact ne_of_gt h

/-- A vector of length `a` laid out as a column of `a` rows reads, at row `i`, the vector at `i`. -/
theorem column_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- A scalar spread over a vector reads the scalar everywhere. -/
theorem spread_one (r : Fin 50000) :
    broadcastInDim S50000 ![] bcast_S_S50000 (constant (F := Ideal) S_ .f32 0x3F800000#32) (ix1 r) = Ideal.ofBits .f32 0x3F800000#32 :=
  broadcastInDim_apply _ bcast_S_S50000 _ (ix1 r) ix0 (fun a => a.elim0)

/-- The quotient of two vectors at an index. -/
theorem hostDiv_apply (a b : FVec Ideal S50000 .f32) (i : S50000.Idx) :
    Host.divf (F := Ideal) (φ := .f32) a b i = Ideal.div (a i) (b i) := rfl

/-- The inverted clamped count of node `r`, read off the column. -/
theorem invCountOf_apply (d : EdgeRow) (r : Fin 50000) :
    invCountOf d (ix2 r (0 : Fin 1)) = Ideal.div 1 (max (countOf d (ix1 r)) (Ideal.ofBits .f32 0x3F800000#32)) := by
  unfold invCountOf
  rw [column_apply, hostDiv_apply, spread_one, one_bits]
  show Ideal.div _ (max (countOf d (ix1 r)) (broadcastInDim S50000 ![] bcast_S_S50000 (constant (F := Ideal) S_ .f32 0x3F800000#32) (ix1 r))) = _
  rw [spread_one, one_bits]
  rfl

/-- The program's mean at row `r`: the neighbours' sum times the inverted clamped count of `r`. -/
theorem meanOf_apply (x : Feat) (s d : EdgeRow) (r : Fin 50000) (k : Fin 128) :
    meanOf x s d (invCountOf d) (ix2 r k)
      = sumOf x s d (ix2 r k) * Ideal.div 1 (max (countOf d (ix1 r)) (Ideal.ofBits .f32 0x3F800000#32)) := by
  unfold meanOf
  show sumOf x s d (ix2 r k) * _ = _
  refine congrArg (sumOf x s d (ix2 r k) * ·) ?_
  refine (broadcastInDim_apply _ bcast_S50000x1_S50000x128_0_1 (invCountOf d) (ix2 r k) (ix2 r (0 : Fin 1)) (fun a => ?_)).trans
    (invCountOf_apply d r)
  match a with
  | ⟨0, _⟩ => show r.val = if (50000 : Nat) = 1 then 0 else r.val; rw [if_neg (by decide)]
  | ⟨1, _⟩ => show 0 = if (1 : Nat) = 1 then 0 else k.val; rw [if_pos rfl]

/-- An entry of a dense stage fed by the program's mean, with the bias given as a vector: the stage fed by the
    plain mean (the sum DIVIDED by the clamped count). -/
theorem layer_entry (x : Feat) (s d : EdgeRow) (X : Feat) (Wl Wr : Mat) (b : Bias) (r : Fin 50000) (q : Fin 128) :
    denseEntry (meanOf x s d (invCountOf d)) X Wl Wr (shapeCast S1x128 b shapeCasts_S128_S1x128) r q
    = ((∑ k : Fin 128, Ideal.div (sumOf x s d (ix2 r k)) (max (countOf d (ix1 r)) (Ideal.ofBits .f32 0x3F800000#32)) * Wl (ix2 k q))
          + b (ix1 q))
        + ∑ k : Fin 128, X (ix2 r k) * Wr (ix2 k q) := by
  have hs : ∀ k : Fin 128, meanOf x s d (invCountOf d) (ix2 r k) * Wl (ix2 k q)
      = Ideal.div (sumOf x s d (ix2 r k)) (max (countOf d (ix1 r)) (Ideal.ofBits .f32 0x3F800000#32)) * Wl (ix2 k q) := fun k => by
    rw [meanOf_apply, mul_inv_eq_div _ _ (clamp_ne_zero _)]
  have hb : shapeCast S1x128 b shapeCasts_S128_S1x128 (ix2 (0 : Fin 1) q) = b (ix1 q) := shapeCast_a_1a_apply b _ 0 q
  unfold denseEntry
  rw [hb]
  simp only [hs]

end Cert.KernelIdeal.Sage

end
-- ==== Proof.RefBridge.lean ====
/-
  The plain formulation, read entry by entry.  It forms the neighbours' mean by DIVIDING the sum by the clamped
  count, multiplies by the transposed left matrix, adds the bias, adds the node features times the transposed right
  matrix, and (first layer) clamps below at zero.  Read at row `r` and column `q` each layer is

      (sum_k (S[r,k] / max(n[r], 1)) * Wl[k,q]  +  b[q])  +  sum_k X[r,k] * Wr[k,q]

  with `S` the neighbours' sum and `n` the count.  The sum, the count, the index rows and the transposes are the
  same whole-array functions of the arguments that the program applies, so they are matched as wholes and never
  opened; the one difference, dividing against scaling by the inverse, is the algebraic fact proved beside the
  program's mean.  Hence the plain formulation's result is the program's function of the arguments.
-/
import proofs.«171911_j39702677684847_1_alg».proof.Proof.Layer
import proofs.«171911_j39702677684847_1_alg».proof.Proof.Gen.ReferenceIdeal.Read

set_option maxRecDepth 16384

noncomputable section

namespace Cert.Sage

open Idealize.ShloMosaic Idealize.ShloMosaic.TcCoe Idealize.ShloMosaic.ValueIdx
open Cert.ReferenceIdeal Cert.ReferenceIdeal.Gen Cert.ReferenceIdeal.Read
open Cert.KernelIdeal.Sage (sumOf countOf srcOf dstOf meanOf invCountOf hiddenOf resultOf stage1 stage2 denseEntry layer_entry)

/-- The row and the column of an index of a feature array, as numbers below the literal extents. -/
abbrev rowOf (i : S50000x128.Idx) : Fin 50000 := ⟨(i 0).val, (i 0).isLt⟩
abbrev colOf (i : S50000x128.Idx) : Fin 128 := ⟨(i 1).val, (i 1).isLt⟩

/-! ## The whole-array pieces the two formulations share -/

theorem src_eq (x1 : (⟨S2x625000, .i32⟩ : BufTy).Contents (Elt Ideal)) : val_main_v1 (F := Ideal) x1 = srcOf x1 := rfl
theorem dst_eq (x1 : (⟨S2x625000, .i32⟩ : BufTy).Contents (Elt Ideal)) : val_main_v3 (F := Ideal) x1 = dstOf x1 := rfl
theorem src_eq' (x1 : (⟨S2x625000, .i32⟩ : BufTy).Contents (Elt Ideal)) : val_main_v33 (F := Ideal) x1 = srcOf x1 := rfl
theorem dst_eq' (x1 : (⟨S2x625000, .i32⟩ : BufTy).Contents (Elt Ideal)) : val_main_v35 (F := Ideal) x1 = dstOf x1 := rfl

theorem count_eq (x1 : (⟨S2x625000, .i32⟩ : BufTy).Contents (Elt Ideal)) : val_main_v17 (F := Ideal) x1 = countOf (dstOf x1) := rfl
theorem count_eq' (x1 : (⟨S2x625000, .i32⟩ : BufTy).Contents (Elt Ideal)) : val_main_v49 (F := Ideal) x1 = countOf (dstOf x1) := rfl

theorem sum_eq (x0 : (⟨S50000x128, .f32⟩ : BufTy).Contents (Elt Ideal)) (x1 : (⟨S2x625000, .i32⟩ : BufTy).Contents (Elt Ideal)) : val_main_v13 (F := Ideal) x0 x1 = sumOf x0 (srcOf x1) (dstOf x1) := rfl

theorem sum_eq' (x0 : (⟨S50000x128, .f32⟩ : BufTy).Contents (Elt Ideal)) (x1 : (⟨S2x625000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v45 (F := Ideal) x0 x1 x2 x3 x4 = sumOf (val_main_v31 (F := Ideal) x0 x1 x2 x3 x4) (srcOf x1) (dstOf x1) := rfl

/-! ## The first layer, entry by entry -/

theorem hidden_entry (x0 : (⟨S50000x128, .f32⟩ : BufTy).Contents (Elt Ideal)) (x1 : (⟨S2x625000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (i : S50000x128.Idx) :
    val_main_v31 (F := Ideal) x0 x1 x2 x3 x4 i
    = max (((∑ k : Fin 128, Ideal.div (val_main_v13 (F := Ideal) x0 x1 (ix2 (rowOf i) k))
                (max (val_main_v17 (F := Ideal) x1 (ix1 (rowOf i))) (Ideal.ofBits .f32 0x3F800000#32))
              * val_main_v23 (F := Ideal) x2 (ix2 k (colOf i)))
            + x3 (ix1 (colOf i)))
          + ∑ k : Fin 128, x0 (ix2 (rowOf i) k) * val_main_v28 (F := Ideal) x4 (ix2 k (colOf i))) 0 := by
  have h1 : ∀ k : Fin 128, val_main_v22 (F := Ideal) x0 x1 (lidx_main_v24 i k) * val_main_v23 (F := Ideal) x2 (ridx_main_v24 i k)
      = Ideal.div (val_main_v13 (F := Ideal) x0 x1 (ix2 (rowOf i) k))
          (max (val_main_v17 (F := Ideal) x1 (ix1 (rowOf i))) (Ideal.ofBits .f32 0x3F800000#32))
        * val_main_v23 (F := Ideal) x2 (ix2 k (colOf i)) := fun k => by
    have el : lidx_main_v24 i k = ix2 (rowOf i) k := funext fun a => Fin.ext (by match a with | ⟨0, _⟩ => rfl | ⟨1, _⟩ => rfl)
    have er : ridx_main_v24 i k = ix2 k (colOf i) := funext fun a => Fin.ext (by match a with | ⟨0, _⟩ => rfl | ⟨1, _⟩ => rfl)
    have ec : idx_main_v20 (idx_main_v21 (ix2 (rowOf i) k)) = ix1 (rowOf i) := funext fun a => Fin.ext (by match a with | ⟨0, _⟩ => rfl)
    rw [el, er, val_main_v22_apply, val_main_v21_apply, val_main_v20_apply, val_main_v19_apply, val_main_v18_apply, val_main_cst_3_apply, ec]
    rfl
  have h2 : ∀ k : Fin 128, x0 (lidx_main_v29 i k) * val_main_v28 (F := Ideal) x4 (ridx_main_v29 i k)
      = x0 (ix2 (rowOf i) k) * val_main_v28 (F := Ideal) x4 (ix2 k (colOf i)) := fun k => by
    have el : lidx_main_v29 i k = ix2 (rowOf i) k := funext fun a => Fin.ext (by match a with | ⟨0, _⟩ => rfl | ⟨1, _⟩ => rfl)
    have er : ridx_main_v29 i k = ix2 k (colOf i) := funext fun a => Fin.ext (by match a with | ⟨0, _⟩ => rfl | ⟨1, _⟩ => rfl)
    rw [el, er]
  have hb : idx_main_v25 (idx_main_v26 i) = ix1 (colOf i) := funext fun a => Fin.ext (by match a with | ⟨0, _⟩ => rfl)
  rw [val_main_v31_apply, val_main_v30_apply, val_main_v27_apply, val_main_v24_apply, val_main_v29_apply, val_main_v26_apply,
    val_main_v25_apply, val_main_call0_v0_apply, val_main_call0_cst_apply, hb]
  simp only [h1, h2]
  show max _ (Ideal.ofBits .f32 0x00000000#32) = _
  rw [Ideal.ofBits_zero_f32]
  rfl

/-- The plain first layer is the program's first stage, as whole arrays. -/
theorem hidden_eq (x0 : (⟨S50000x128, .f32⟩ : BufTy).Contents (Elt Ideal)) (x1 : (⟨S2x625000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v31 (F := Ideal) x0 x1 x2 x3 x4 = hiddenOf x0 x1 x2 x3 x4 := by
  funext i
  rw [hidden_entry, sum_eq, count_eq]
  unfold hiddenOf stage1
  rw [layer_entry]
  rfl

/-! ## The second layer, entry by entry -/

theorem result_entry (x0 : (⟨S50000x128, .f32⟩ : BufTy).Contents (Elt Ideal)) (x1 : (⟨S2x625000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) (i : S50000x128.Idx) :
    val_main_v62 (F := Ideal) x0 x1 x2 x3 x4 x5 x6 x7 i
    = ((∑ k : Fin 128, Ideal.div (val_main_v45 (F := Ideal) x0 x1 x2 x3 x4 (ix2 (rowOf i) k))
                (max (val_main_v49 (F := Ideal) x1 (ix1 (rowOf i))) (Ideal.ofBits .f32 0x3F800000#32))
              * val_main_v55 (F := Ideal) x5 (ix2 k (colOf i)))
            + x6 (ix1 (colOf i)))
          + ∑ k : Fin 128, val_main_v31 (F := Ideal) x0 x1 x2 x3 x4 (ix2 (rowOf i) k) * val_main_v60 (F := Ideal) x7 (ix2 k (colOf i)) := by
  have h1 : ∀ k : Fin 128, val_main_v54 (F := Ideal) x0 x1 x2 x3 x4 (lidx_main_v56 i k) * val_main_v55 (F := Ideal) x5 (ridx_main_v56 i k)
      = Ideal.div (val_main_v45 (F := Ideal) x0 x1 x2 x3 x4 (ix2 (rowOf i) k))
          (max (val_main_v49 (F := Ideal) x1 (ix1 (rowOf i))) (Ideal.ofBits .f32 0x3F800000#32))
        * val_main_v55 (F := Ideal) x5 (ix2 k (colOf i)) := fun k => by
    have el : lidx_main_v56 i k = ix2 (rowOf i) k := funext fun a => Fin.ext (by match a with | ⟨0, _⟩ => rfl | ⟨1, _⟩ => rfl)
    have er : ridx_main_v56 i k = ix2 k (colOf i) := funext fun a => Fin.ext (by match a with | ⟨0, _⟩ => rfl | ⟨1, _⟩ => rfl)
    have ec : idx_main_v52 (idx_main_v53 (ix2 (rowOf i) k)) = ix1 (rowOf i) := funext fun a => Fin.ext (by match a with | ⟨0, _⟩ => rfl)
    rw [el, er, val_main_v54_apply, val_main_v53_apply, val_main_v52_apply, val_main_v51_apply, val_main_v50_apply, val_main_cst_9_apply, ec]
    rfl
  have h2 : ∀ k : Fin 128, val_main_v31 (F := Ideal) x0 x1 x2 x3 x4 (lidx_main_v61 i k) * val_main_v60 (F := Ideal) x7 (ridx_main_v61 i k)
      = val_main_v31 (F := Ideal) x0 x1 x2 x3 x4 (ix2 (rowOf i) k) * val_main_v60 (F := Ideal) x7 (ix2 k (colOf i)) := fun k => by
    have el : lidx_main_v61 i k = ix2 (rowOf i) k := funext fun a => Fin.ext (by match a with | ⟨0, _⟩ => rfl | ⟨1, _⟩ => rfl)
    have er : ridx_main_v61 i k = ix2 k (colOf i) := funext fun a => Fin.ext (by match a with | ⟨0, _⟩ => rfl | ⟨1, _⟩ => rfl)
    rw [el, er]
  have hb : idx_main_v57 (idx_main_v58 i) = ix1 (colOf i) := funext fun a => Fin.ext (by match a with | ⟨0, _⟩ => rfl)
  rw [val_main_v62_apply, val_main_v59_apply, val_main_v56_apply, val_main_v61_apply, val_main_v58_apply, val_main_v57_apply, hb]
  simp only [h1, h2]
  rfl

/-- The plain formulation's result is the program's function of the arguments. -/
theorem result_eq (x0 : (⟨S50000x128, .f32⟩ : BufTy).Contents (Elt Ideal)) (x1 : (⟨S2x625000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v62 (F := Ideal) x0 x1 x2 x3 x4 x5 x6 x7 = resultOf x0 x1 x2 x3 x4 x5 x6 x7 := by
  funext i
  rw [result_entry, sum_eq', count_eq', hidden_eq]
  unfold resultOf stage2
  rw [layer_entry]
  rfl

end Cert.Sage

end
-- ==== Proof.lean ====
/-
  Two layers of neighbourhood averaging followed by a dense map: for 50000 nodes with 128 features and 625000
  edges, each layer replaces a node's features `x` by

      mean of x over the node's in-neighbours  *  Wl^T   +   b   +   x * Wr^T

  (the first layer clamped below at zero), the mean being the neighbours' sum over the in-degree clamped below
  at one.  The program forms the mean by scaling the sum with the INVERTED clamped degree and runs each dense
  map as a pipelined call over ten blocks of 5000 rows, rounding the operands of its products to bfloat16; the
  plain formulation divides the sum by the clamped degree and takes whole matrix products.

  Over the extended reals the two are one function of the arguments:
  * rounding to bfloat16 is the identity, and a product accumulated from zero is the plain sum of products;
  * each call's result array is one function of the arrays the call finds, because every block of rows is that
    function's restriction and the ten blocks cover the array (Stage);
  * the host operations around the calls — the edge rows, the degree count, the gather and the sum by destination,
    the transposes — are the same whole-array functions in both formulations and are never opened (Glue);
  * scaling by the inverse of a divisor other than zero is dividing by it, whatever the dividend, and the clamped
    degree is at least one (Layer); no finiteness of the inputs is used.
  The frames of the program as printed and as idealized are the generated ones; the plain formulation's frame is
  its generated run with the results dropped; nothing was rewritten between the program and its idealization.
-/
import proofs.«171911_j39702677684847_1_alg».proof.Defs
import proofs.«171911_j39702677684847_1_alg».proof.Proof.Gen.Kernel
import proofs.«171911_j39702677684847_1_alg».proof.Proof.Gen.Kernel.Skeleton
import proofs.«171911_j39702677684847_1_alg».proof.Proof.Gen.Kernel.Launch
import proofs.«171911_j39702677684847_1_alg».proof.Proof.Gen.Kernel.Points
import proofs.«171911_j39702677684847_1_alg».proof.Proof.Gen.Kernel.Frame
import proofs.«171911_j39702677684847_1_alg».proof.Proof.Gen.KernelIdeal
import proofs.«171911_j39702677684847_1_alg».proof.Proof.Gen.KernelIdeal.Skeleton
import proofs.«171911_j39702677684847_1_alg».proof.Proof.Gen.KernelIdeal.Launch
import proofs.«171911_j39702677684847_1_alg».proof.Proof.Gen.KernelIdeal.Points
import proofs.«171911_j39702677684847_1_alg».proof.Proof.Gen.KernelIdeal.Frame
import proofs.«171911_j39702677684847_1_alg».proof.Proof.Gen.ReferenceIdeal
import proofs.«171911_j39702677684847_1_alg».proof.Proof.Gen.ReferenceIdeal.Run
import proofs.«171911_j39702677684847_1_alg».proof.Proof.Gen.ReferenceIdeal.Read
import proofs.«171911_j39702677684847_1_alg».proof.Proof.Gen.Pre_finite_inputs
import proofs.«171911_j39702677684847_1_alg».proof.Proof.KernelRun
import proofs.«171911_j39702677684847_1_alg».proof.Proof.Glue
import proofs.«171911_j39702677684847_1_alg».proof.Proof.RefBridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The plain formulation's frame: its run, the four results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- Both runs end with every one of the four results at the same function of the arguments. -/
theorem algebraic : Cert.algebraic_KernelIdeal_ReferenceIdeal := by
  intro m ρ m' ρ' _ hagree
  refine ⟨fun c => Cert.KernelIdeal.Sage.resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.KernelIdeal.Sage.resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.KernelIdeal.Sage.resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.KernelIdeal.Sage.resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Sage.result_eq m ρ c), (h c).1.trans (Cert.KernelIdeal.Sage.result_eq m ρ c),
        (h c).1.trans (Cert.KernelIdeal.Sage.result_eq m ρ c), (h c).1.trans (Cert.KernelIdeal.Sage.result_eq m ρ c), (h c).2⟩)
      (Cert.KernelIdeal.Sage.run_result (F := Ideal) m ρ)
  · have e : ∀ c : Dev Cert.ReferenceIdeal.nD, Cert.ReferenceIdeal.Value.res_main_v62 m' c
        = Cert.KernelIdeal.Sage.resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := fun c => by
      rw [Cert.ReferenceIdeal.Read.val_main_v62_eq, Cert.Sage.result_eq, (hagree c).1, (hagree c).2.1, (hagree c).2.2.1, (hagree c).2.2.2.1,
        (hagree c).2.2.2.2.1, (hagree c).2.2.2.2.2.1, (hagree c).2.2.2.2.2.2.1, (hagree c).2.2.2.2.2.2.2]
    exact (θ_run Cert.ReferenceIdeal.defs _ _).mono
      (fun _ h c => ⟨(h c).1.trans (e c), (h c).2.1.trans (e c), (h c).2.2.1.trans (e c), (h c).2.2.2.1.trans (e c), (h c).2.2.2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
